-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S500000x128 .f32) (main_arg1 : FVec F S256x128 .f32) (main_arg2 : FVec F S256 .f32) (main_arg3 : FVec F S256x128 .f32) (main_arg4 : FVec F S128x256 .f32) (main_arg5 : FVec F S128 .f32) (main_arg6 : FVec F S128x256 .f32) (main_arg7 : IVec S1600000 32) (main_arg8 : IVec S1600000 32) (main_arg9 : IVec S400000 32) (main_arg10 : IVec S400000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S400000x1 : Shape := ⟨2, ![400000, 1]⟩
abbrev S400000x256 : Shape := ⟨2, ![400000, 256]⟩
abbrev S25000x256 : Shape := ⟨2, ![25000, 256]⟩
abbrev S25000 : Shape := ⟨1, ![25000]⟩
abbrev S25000x1 : Shape := ⟨2, ![25000, 1]⟩
abbrev S25000x128 : Shape := ⟨2, ![25000, 128]⟩
abbrev S1000x256 : Shape := ⟨2, ![1000, 256]⟩
abbrev S1000x1 : Shape := ⟨2, ![1000, 1]⟩
abbrev S1000x128 : Shape := ⟨2, ![1000, 128]⟩
abbrev S1x128 : Shape := ⟨2, ![1, 128]⟩

abbrev nBuf : Space → Nat
  | .hbm => 57
  | .vmem => 22
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S1600000, .i32⟩
  | .hbm, ⟨8, _⟩ => ⟨S1600000, .i32⟩
  | .hbm, ⟨9, _⟩ => ⟨S400000, .i32⟩
  | .hbm, ⟨10, _⟩ => ⟨S400000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S128x256, .f32⟩
  | .hbm, ⟨32, _⟩ => ⟨S128x256, .f32⟩
  | .hbm, ⟨33, _⟩ => ⟨S100000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S_, .f32⟩
  | .hbm, ⟨44, _⟩ => ⟨S25000x256, .f32⟩
  | .hbm, ⟨45, _⟩ => ⟨S400000x1, .i32⟩
  | .hbm, ⟨46, _⟩ => ⟨S25000x256, .f32⟩
  | .hbm, ⟨47, _⟩ => ⟨S_, .f32⟩
  | .hbm, ⟨48, _⟩ => ⟨S400000, .f32⟩
  | .hbm, ⟨49, _⟩ => ⟨S_, .f32⟩
  | .hbm, ⟨50, _⟩ => ⟨S25000, .f32⟩
  | .hbm, ⟨51, _⟩ => ⟨S400000x1, .i32⟩
  | .hbm, ⟨52, _⟩ => ⟨S25000, .f32⟩
  | .hbm, ⟨53, _⟩ => ⟨S25000x1, .f32⟩
  | .hbm, ⟨54, _⟩ => ⟨S256x128, .f32⟩
  | .hbm, ⟨55, _⟩ => ⟨S256x128, .f32⟩
  | .hbm, ⟨56, _⟩ => ⟨S25000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S256, .f32⟩
  | .local _ .vmem, ⟨8, _⟩ => ⟨S128x256, .f32⟩
  | .local _ .vmem, ⟨9, _⟩ => ⟨S2000x256, .f32⟩
  | .local _ .vmem, ⟨10, _⟩ => ⟨S2000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x1, .f32⟩
  | .local _ .vmem, ⟨16, _⟩ => ⟨S1000x1, .f32⟩
  | .local _ .vmem, ⟨17, _⟩ => ⟨S256x128, .f32⟩
  | .local _ .vmem, ⟨18, _⟩ => ⟨S128, .f32⟩
  | .local _ .vmem, ⟨19, _⟩ => ⟨S256x128, .f32⟩
  | .local _ .vmem, ⟨20, _⟩ => ⟨S1000x128, .f32⟩
  | .local _ .vmem, ⟨21, _⟩ => ⟨S1000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  transposes_S256x128_S128x256_1_0 : S256x128.Transposes [1, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S400000 : S_.BroadcastsInDim S400000 (![] : Fin 0 → Fin S400000.rank)
  bcast_S400000_S400000x1_0 : S400000.BroadcastsInDim S400000x1 (![0] : Fin 1 → Fin S400000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  transposes_S128x256_S256x128_1_0 : S128x256.Transposes [1, 0] S256x128
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  gather_S500000x128_S1600000x1_S1600000x128_1_0_n_n_0_1_1128_wf : GatherDims.WF S500000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  gather_S100000x256_S400000x1_S400000x256_1_0_n_n_0_1_1256_wf : GatherDims.WF S100000x256 S400000x1 S400000x256 [1] [0] [] [0] [] 1 ![1, 256]
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S25000x256.size a
  hwx1_0 : ∀ i : grid1.Coords, EltTy.bits .f32 = 32 ∨ (Rect.block (s := S25000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S100000x256.size a
  hwx1_1 : ∀ i : grid1.Coords, EltTy.bits .f32 = 32 ∨ (Rect.block (s := S100000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S25000x1.size a
  hwx1_2 : ∀ i : grid1.Coords, EltTy.bits .f32 = 32 ∨ (Rect.block (s := S25000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S25000x128.size a
  hwx1_6 : ∀ i : grid1.Coords, EltTy.bits .f32 = 32 ∨ (Rect.block (s := S25000x128) S1000x128.size (cc1_transform_6 i) (hinb1_6 i)).WholeWords (EltTy.packing .f32)

variable [Facts₀]

def gather_S500000x128_S1600000x1_S1600000x128_1_0_n_n_0_1_1128 : GatherDims S500000x128 S1600000x1 S1600000x128 where
  offsetDims := [1]
  collapsedSliceDims := [0]
  operandBatchingDims := []
  startIndicesBatchingDims := []
  startIndexMap := [0]
  indexVectorDim := 1
  sliceSizes := ![1, 128]
  wf := gather_S500000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x128 : Shape := ⟨2, ![500000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1600000 : Shape := ⟨1, ![1600000]⟩
abbrev S400000 : Shape := ⟨1, ![400000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S25000x256 : Shape := ⟨2, ![25000, 256]⟩
abbrev S400000x1 : Shape := ⟨2, ![400000, 1]⟩
abbrev S400000x256 : Shape := ⟨2, ![400000, 256]⟩
abbrev S25000 : Shape := ⟨1, ![25000]⟩
abbrev S25000x1 : Shape := ⟨2, ![25000, 1]⟩
abbrev S25000x128 : Shape := ⟨2, ![25000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S1600000, .i32⟩
  | .hbm, ⟨8, _⟩ => ⟨S1600000, .i32⟩
  | .hbm, ⟨9, _⟩ => ⟨S400000, .i32⟩
  | .hbm, ⟨10, _⟩ => ⟨S400000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S128x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S25000x256, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x256, .f32⟩
  | .hbm, ⟨59, _⟩ => ⟨S_, .f32⟩
  | .hbm, ⟨60, _⟩ => ⟨S25000x256, .f32⟩
  | .hbm, ⟨61, _⟩ => ⟨S400000x1, .i32⟩
  | .hbm, ⟨62, _⟩ => ⟨S25000x256, .f32⟩
  | .hbm, ⟨63, _⟩ => ⟨S_, .f32⟩
  | .hbm, ⟨64, _⟩ => ⟨S400000, .f32⟩
  | .hbm, ⟨65, _⟩ => ⟨S_, .f32⟩
  | .hbm, ⟨66, _⟩ => ⟨S25000, .f32⟩
  | .hbm, ⟨67, _⟩ => ⟨S400000x1, .i32⟩
  | .hbm, ⟨68, _⟩ => ⟨S25000, .f32⟩
  | .hbm, ⟨69, _⟩ => ⟨S_, .f32⟩
  | .hbm, ⟨70, _⟩ => ⟨S_, .f32⟩
  | .hbm, ⟨71, _⟩ => ⟨S25000, .f32⟩
  | .hbm, ⟨72, _⟩ => ⟨S25000, .f32⟩
  | .hbm, ⟨73, _⟩ => ⟨S25000x1, .f32⟩
  | .hbm, ⟨74, _⟩ => ⟨S25000x256, .f32⟩
  | .hbm, ⟨75, _⟩ => ⟨S25000x256, .f32⟩
  | .hbm, ⟨76, _⟩ => ⟨S256x128, .f32⟩
  | .hbm, ⟨77, _⟩ => ⟨S25000x128, .f32⟩
  | .hbm, ⟨78, _⟩ => ⟨S1x128, .f32⟩
  | .hbm, ⟨79, _⟩ => ⟨S25000x128, .f32⟩
  | .hbm, ⟨80, _⟩ => ⟨S25000x128, .f32⟩
  | .hbm, ⟨81, _⟩ => ⟨S256x128, .f32⟩
  | .hbm, ⟨82, _⟩ => ⟨S25000x128, .f32⟩
  | .hbm, ⟨83, _⟩ => ⟨S25000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  slices_S500000x128_S100000x128_0_0 : S500000x128.Slices ![0, 0] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S100000x256_S25000x256_0_0 : S100000x256.Slices ![0, 0] S25000x256
  bcast_S_S400000 : S_.BroadcastsInDim S400000 (![] : Fin 0 → Fin S400000.rank)
  bcast_S400000_S400000x1_0 : S400000.BroadcastsInDim S400000x1 (![0] : Fin 1 → Fin S400000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  transposes_S128x256_S256x128_1_0 : S128x256.Transposes [1, 0] S256x128
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  gather_S500000x128_S1600000x1_S1600000x128_1_0_n_n_0_1_1128_wf : GatherDims.WF S500000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S25000x256_S256x128_S25000x128_1_0_0_1_n_n_wf : DotDims.WF S25000x256 S256x128 S25000x128 [1] [0] [0] [1] [] []

variable [Facts₀]

def gather_S500000x128_S1600000x1_S1600000x128_1_0_n_n_0_1_1128 : GatherDims S500000x128 S1600000x1 S1600000x128 where
  offsetDims := [1]
  collapsedSliceDims := [0]
  operandBatchingDims := []
  startIndicesBatchingDims := []
  startIndexMap := [0]
  indexVectorDim := 1
  sliceSizes := ![1, 128]
  wf := gather_S500000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf

class Facts : Prop extends Facts₀ where

variable [Facts]
-- ==== Proof.WholeRun.lean ====
/-
  The idealized kernel's run, with every buffer of the TensorCore named at the end.

  The program is a stretch of host operations, a first launch (the first layer's combine stage), a second stretch of host
  operations that consume the first launch's result, and a second launch. Its run passes through five boundaries; at each
  one the contents of every buffer are a known function of the launch memory: a host stretch applies its operations in
  order, a launch replaces its output array by what its grid points wrote back and leaves everything else as it was. This
  module restates the run of the whole program so that its conclusion speaks of EVERY buffer at the last boundary — in
  particular of the result array, which the statement about unchanged arguments does not mention.
-/
import proofs.«129243_j55078660603921_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state every buffer that
    outlives the launches holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Whole

end
-- ==== Proof.Stages.lean ====
/-
  What the host computes around the two launches: each layer's operands as functions of the arrays they are computed from.

  Before a launch the host prepares that layer's operands. From the edge list (a source and a destination node per
  message) and the source nodes' features it GATHERS one feature row per message — a negative source number counts
  from the end — and SUMS the rows into their destinations; summing a row of ones per message the same
  way COUNTS the messages that reach each destination, and the count is kept as a column; the two weight matrices are
  transposed so that they multiply on the right. Gathering and summing are kept here as the host's own operations: both
  programs apply the same ones to the same arrays, so nothing about them needs to be opened. The first launch reads the
  features it combines straight from the argument array; the second reads the first launch's result.
-/
import proofs.«129243_j55078660603921_2_alg».proof.Proof.Gen.KernelIdeal.Launch
import Idealize.ShloMosaic.Lib.StableHlo.Run
import Idealize.ShloMosaic.PureOps.Ideal

noncomputable section

namespace Cert.KernelIdeal.Stages

open Cert.KernelIdeal Cert.KernelIdeal.Gen Idealize.ShloMosaic Idealize.ShloMosaic.TcCoe Idealize.SL.Sem Idealize.ShloMosaic.StableHlo

/-- A float array of a given shape, at the extended reals. -/
abbrev FArr (s : Shape) : Type := (⟨s, .f32⟩ : BufTy).Contents (Elt Ideal)
/-- An array of 32-bit node numbers. -/
abbrev IArr (s : Shape) : Type := (⟨s, .i32⟩ : BufTy).Contents (Elt Ideal)

/-! ## The first layer's operands -/

/-- For each of the 1600000 messages of the first layer, the row of the 500000 source nodes it is read from. -/
def src0 (s : IArr S1600000) : IArr S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 500000#32))) s)

/-- The summed messages of the first layer: for each of the 100000 target nodes, the sum of the feature rows sent to it. -/
def agg0 (x : FArr S500000x128) (s d : IArr S1600000) : FArr S100000x128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S500000x128_S1600000x1_S1600000x128_1_0_n_n_0_1_1128 x (src0 s))

/-- How many messages reach each target node of the first layer, as a column. -/
def cnt0 (d : IArr S1600000) : FArr S100000x1 :=
  broadcastInDim S100000x1 ![0] bcast_S100000_S100000x1_0
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))

/-- A weight matrix of the first layer, transposed to inputs by outputs. -/
def wT0 (w : FArr S256x128) : FArr S128x256 := transpose S128x256 [1, 0] w transposes_S256x128_S128x256_1_0

/-! ## The second layer's operands -/

/-- For each of the 400000 messages of the second layer, the row of the 100000 first-layer nodes it is read from. -/
def src1 (s : IArr S400000) : IArr S400000x1 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- The summed messages of the second layer, from the first layer's result `h`. -/
def agg1 (h : FArr S100000x256) (s d : IArr S400000) : FArr S25000x256 :=
  Host.scatterAdd (F := Ideal) scatter_S25000x256_S400000x1_S400000x256_1_0_0_1
    (broadcastInDim S25000x256 ![] bcast_S_S25000x256 (constant (F := Ideal) S_ .f32 0x00000000#32))
    (broadcastInDim S400000x1 ![0] bcast_S400000_S400000x1_0 d)
    (Host.gather gather_S100000x256_S400000x1_S400000x256_1_0_n_n_0_1_1256 h (src1 s))

/-- How many messages reach each target node of the second layer, as a column. -/
def cnt1 (d : IArr S400000) : FArr S25000x1 :=
  broadcastInDim S25000x1 ![0] bcast_S25000_S25000x1_0
    (Host.scatterAdd (F := Ideal) scatter_S25000_S400000x1_S400000_n_0_0_1
      (broadcastInDim S25000 ![] bcast_S_S25000 (constant (F := Ideal) S_ .f32 0x00000000#32))
      (broadcastInDim S400000x1 ![0] bcast_S400000_S400000x1_0 d)
      (broadcastInDim S400000 ![] bcast_S_S400000 (constant (F := Ideal) S_ .f32 0x3F800000#32)))

/-- A weight matrix of the second layer, transposed to inputs by outputs. -/
def wT1 (w : FArr S128x256) : FArr S256x128 := transpose S256x128 [1, 0] w transposes_S128x256_S256x128_1_0

/-! ## The two stretches of host operations, read at the buffers the launches take -/

variable (W : Valuation τ sig (Elt Ideal))

/-- After the first stretch the summed-messages buffer holds `agg0` of the arguments as the stretch found them. -/
theorem first_agg : after (hostOps0 (F := Ideal)) W (Proc.devRef .tc main_v9)
    = agg0 (W (Proc.devRef .tc main_arg0)) (W (Proc.devRef .tc main_arg7)) (W (Proc.devRef .tc main_arg8)) := by
  unfold agg0 src0; after_results <;> rfl

theorem first_cnt : after (hostOps0 (F := Ideal)) W (Proc.devRef .tc main_v14) = cnt0 (W (Proc.devRef .tc main_arg8)) := by
  unfold cnt0; after_results <;> rfl

theorem first_wl : after (hostOps0 (F := Ideal)) W (Proc.devRef .tc main_v15) = wT0 (W (Proc.devRef .tc main_arg1)) := by
  unfold wT0; after_results <;> rfl

theorem first_wr : after (hostOps0 (F := Ideal)) W (Proc.devRef .tc main_v16) = wT0 (W (Proc.devRef .tc main_arg3)) := by
  unfold wT0; after_results <;> rfl

/-- The first stretch writes no argument. -/
theorem first_arg0 : after (hostOps0 (F := Ideal)) W (Proc.devRef .tc main_arg0) = W (Proc.devRef .tc main_arg0) := by
  after_results <;> rfl
theorem first_arg2 : after (hostOps0 (F := Ideal)) W (Proc.devRef .tc main_arg2) = W (Proc.devRef .tc main_arg2) := by
  after_results <;> rfl
theorem first_arg4 : after (hostOps0 (F := Ideal)) W (Proc.devRef .tc main_arg4) = W (Proc.devRef .tc main_arg4) := by
  after_results <;> rfl
theorem first_arg5 : after (hostOps0 (F := Ideal)) W (Proc.devRef .tc main_arg5) = W (Proc.devRef .tc main_arg5) := by
  after_results <;> rfl
theorem first_arg6 : after (hostOps0 (F := Ideal)) W (Proc.devRef .tc main_arg6) = W (Proc.devRef .tc main_arg6) := by
  after_results <;> rfl
theorem first_arg9 : after (hostOps0 (F := Ideal)) W (Proc.devRef .tc main_arg9) = W (Proc.devRef .tc main_arg9) := by
  after_results <;> rfl
theorem first_arg10 : after (hostOps0 (F := Ideal)) W (Proc.devRef .tc main_arg10) = W (Proc.devRef .tc main_arg10) := by
  after_results <;> rfl

/-- After the second stretch the summed-messages buffer holds `agg1` of the first launch's result and the edge list. -/
theorem second_agg : after (hostOps1 (F := Ideal)) W (Proc.devRef .tc main_v27)
    = agg1 (W (Proc.devRef .tc main_v17)) (W (Proc.devRef .tc main_arg9)) (W (Proc.devRef .tc main_arg10)) := by
  unfold agg1 src1; after_results <;> rfl

theorem second_cnt : after (hostOps1 (F := Ideal)) W (Proc.devRef .tc main_v32) = cnt1 (W (Proc.devRef .tc main_arg10)) := by
  unfold cnt1; after_results <;> rfl

theorem second_wl : after (hostOps1 (F := Ideal)) W (Proc.devRef .tc main_v33) = wT1 (W (Proc.devRef .tc main_arg4)) := by
  unfold wT1; after_results <;> rfl

theorem second_wr : after (hostOps1 (F := Ideal)) W (Proc.devRef .tc main_v34) = wT1 (W (Proc.devRef .tc main_arg6)) := by
  unfold wT1; after_results <;> rfl

/-- The second stretch leaves the first launch's result and the bias where they are. -/
theorem second_h : after (hostOps1 (F := Ideal)) W (Proc.devRef .tc main_v17) = W (Proc.devRef .tc main_v17) := by
  after_results <;> rfl
theorem second_arg5 : after (hostOps1 (F := Ideal)) W (Proc.devRef .tc main_arg5) = W (Proc.devRef .tc main_arg5) := by
  after_results <;> rfl

end Cert.KernelIdeal.Stages

end
-- ==== Proof.LayerSpec.lean ====
/-
  The specification: what one mean-aggregating graph layer holds at an entry, as a function of its operand arrays.

  A layer has `n` target nodes, which are the first `n` of the `nx` source nodes, `din` input and `dout` output features.
  Its operands: `A` (for each target node the SUM of the feature rows of the nodes that send it a message), `X` (the source
  nodes' own features; a target's own row is the row of the same number), `C` (a column: how many messages reach each target),
  the two weight matrices `WL`, `WR` (inputs by outputs) and the bias `B`. Entry `(p, q)` of the layer is

      (∑ k, A (p, k) · WL (k, q)) · (1 / max (C p) 1)  +  ∑ k, X (p, k) · WR (k, q)  +  B q

  the mixed sum of the neighbours scaled to a mean by the clamped count, plus the node's own mixed features, plus the bias.
  The first layer is followed by the rectifier `max · 0`; the second is not. The float literals one and zero are kept as
  the words the programs spell them with; `one_word` says which real the first denotes.
-/
import Idealize.ShloMosaic.PureOps.Ideal
import Idealize.ShloMosaic.Lib.ValueIdx

noncomputable section

namespace SageSpec

open Idealize.ShloMosaic Idealize.ShloMosaic.ValueIdx

/-- The float word of `1.0`, as an extended real. -/
abbrev oneW : EReal := Ideal.ofBits .f32 0x3F800000#32
/-- The float word of `0.0`, as an extended real. -/
abbrev zeroW : EReal := Ideal.ofBits .f32 0x00000000#32

/-- The word `0x3F800000` denotes the real number one. -/
theorem one_word : oneW = 1 := by
  simp [oneW, Ideal.ofBits, Ideal.ieee]
  rw [← EReal.coe_mul, ← EReal.coe_one, EReal.coe_eq_coe_iff]
  norm_num

/-- Entry `(p, q)` of a layer before any rectifier: see the header. -/
def mix (n nx din dout : ℕ) (h : n ≤ nx)
    (A : (⟨2, ![n, din]⟩ : Shape).Idx → EReal) (X : (⟨2, ![nx, din]⟩ : Shape).Idx → EReal)
    (C : (⟨2, ![n, 1]⟩ : Shape).Idx → EReal) (WL : (⟨2, ![din, dout]⟩ : Shape).Idx → EReal)
    (B : (⟨1, ![dout]⟩ : Shape).Idx → EReal) (WR : (⟨2, ![din, dout]⟩ : Shape).Idx → EReal)
    (p : Fin n) (q : Fin dout) : EReal :=
  ((∑ k : Fin din, A (ix2 p k) * WL (ix2 k q)) * Ideal.div oneW (max (C (ix2 p (0 : Fin 1))) oneW)
    + ∑ k : Fin din, X (ix2 (Fin.castLE h p) k) * WR (ix2 k q)) + B (ix1 q)

/-- The first layer: 100000 of 500000 nodes, 128 features in, 256 out, rectified. -/
def layer0 (A : (⟨2, ![100000, 128]⟩ : Shape).Idx → EReal) (X : (⟨2, ![500000, 128]⟩ : Shape).Idx → EReal)
    (C : (⟨2, ![100000, 1]⟩ : Shape).Idx → EReal) (WL : (⟨2, ![128, 256]⟩ : Shape).Idx → EReal)
    (B : (⟨1, ![256]⟩ : Shape).Idx → EReal) (WR : (⟨2, ![128, 256]⟩ : Shape).Idx → EReal) :
    (⟨2, ![100000, 256]⟩ : Shape).Idx → EReal :=
  fun i => max (mix 100000 500000 128 256 (by norm_num) A X C WL B WR (i 0) (i 1)) zeroW

/-- The second layer: 25000 of the first layer's 100000 nodes, 256 features in, 128 out, not rectified. -/
def layer1 (A : (⟨2, ![25000, 256]⟩ : Shape).Idx → EReal) (X : (⟨2, ![100000, 256]⟩ : Shape).Idx → EReal)
    (C : (⟨2, ![25000, 1]⟩ : Shape).Idx → EReal) (WL : (⟨2, ![256, 128]⟩ : Shape).Idx → EReal)
    (B : (⟨1, ![128]⟩ : Shape).Idx → EReal) (WR : (⟨2, ![256, 128]⟩ : Shape).Idx → EReal) :
    (⟨2, ![25000, 128]⟩ : Shape).Idx → EReal :=
  fun i => mix 25000 100000 256 128 (by norm_num) A X C WL B WR (i 0) (i 1)

end SageSpec

end
-- ==== Proof.LibColumnBroadcast.lean ====
/-
  One column broadcast over many: a reusable fact about array layouts, independent of any program.
-/
import Idealize.ShloMosaic.Lib.Pipeline.Value
import Idealize.ShloMosaic.Lib.ValueIdx

namespace LibColumnBroadcast

open Idealize.ShloMosaic Idealize.ShloMosaic.ValueIdx

/-- An `[a, 1]` array (one value per row, kept as a column) broadcast to `[a, b]` reads, at `(p, c)`, the column's value
    in row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.Tile0.lean ====
/-
  What one grid point of launch 0 computes: the body's block at an entry.

  The body is handed a block of 2000 rows of the summed messages, the same 2000 rows of the node features and of the message
  counts, and the whole weight matrices (128 by 256) and bias. It forms two matrix products into zero accumulators, scales the
  first by the reciprocal of the count clamped below by one (one value per row, spread along the row), adds the second and
  the bias (one value per column, spread down the column), and rectifies. Read at entry `(p, q)` each product is the sum over the 128
  contracted features, the spread count is row `p`'s and the spread bias column `q`'s: the entry is the layer's entry on the
  block's own rows.
-/
import proofs.«129243_j55078660603921_2_alg».proof.Proof.Gen.KernelIdeal.Skeleton
import proofs.«129243_j55078660603921_2_alg».proof.Proof.LayerSpec
import proofs.«129243_j55078660603921_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile0

open Cert.KernelIdeal Cert.KernelIdeal.Gen Idealize.ShloMosaic Idealize.ShloMosaic.ValueIdx

/-- The left operand of the block's matrix product is read along the output's row. -/
theorem lhs_row (i : S2000x256.Idx) (k : dot_S2000x128_S128x256_S2000x256_1_0_0_1_n_n.contr.Idx) : (dot_S2000x128_S128x256_S2000x256_1_0_0_1_n_n.lhsIdx i k 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl

/-- The right operand of the block's matrix product is read down the output's column. -/
theorem rhs_col (i : S2000x256.Idx) (k : dot_S2000x128_S128x256_S2000x256_1_0_0_1_n_n.contr.Idx) : (dot_S2000x128_S128x256_S2000x256_1_0_0_1_n_n.rhsIdx i k 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block's matrix product into a zero accumulator, at entry `(p, q)`: the sum over the 128 contracted features of the
    left operand's row `p` times the right operand's column `q`. -/
theorem dot_entry {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q) = ∑ k : Fin 128, l (ix2 p k) * r (ix2 k q) := by
  refine (Ideal.matmul_constant_zero_apply dot_S2000x128_S128x256_S2000x256_1_0_0_1_n_n none l r (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (dot_S2000x128_S128x256_S2000x256_1_0_0_1_n_n.lhsIdx_val_of_single rfl _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (dot_S2000x128_S128x256_S2000x256_1_0_0_1_n_n.rhsIdx_val_of_single rfl _ _).trans hk
    | ⟨1, _⟩ => exact rhs_col _ _)
  rw [el, er]

/-- WHAT THE BODY STORES, at entry `(p, q)` of its block: the layer's entry computed from the block's own 2000 rows alone
    (the block of summed messages, the block of the nodes' own features and the block of counts taken as whole operands), rectified.
    Rounding the operands to a narrower format before the products changes nothing on the extended reals. -/
theorem pay_entry (a x : Vec Ideal S2000x128 .f32) (wl wr : Vec Ideal S128x256 .f32) (b : Vec Ideal S256 .f32) (cn : Vec Ideal S2000x1 .f32)
    (p : Fin 2000) (q : Fin 256) :
    k0_pay1 (F := Ideal) a x wl wr b cn (ix2 p q)
      = max (SageSpec.mix 2000 2000 128 256 le_rfl a x cn wl b wr p q) SageSpec.zeroW := by
  unfold k0_pay1 SageSpec.mix
  simp only [shapeCast_self]
  simp only [maximumf_apply, addf_apply, mulf_apply, broadcast_apply]
  rw [dot_entry, dot_entry, LibColumnBroadcast.broadcastTo_a1_ab_apply, broadcastTo_1b_ab_apply, shapeCast_a_1a_apply]
  rfl

end Cert.KernelIdeal.Tile0

end
-- ==== Proof.LayerRows.lean ====
/-
  Row locality of a layer: entry `(p, q)` depends on its operands only through row `p` — the summed messages of node `p`,
  node `p`'s own features and node `p`'s message count — besides the weights and the bias. So a block of consecutive rows
  computed alone, from the same rows of the operands, is that block of the whole layer. This is what lets a launch
  compute the layer a block of rows at a time.
-/
import proofs.«129243_j55078660603921_2_alg».proof.Proof.LayerSpec

noncomputable section

namespace SageSpec

open Idealize.ShloMosaic Idealize.ShloMosaic.ValueIdx

/-- Two layers (of any numbers of nodes) whose operands agree on one row of each, and whose weights and bias agree on one
    column, agree at that entry. -/
theorem mix_row_local (n nx n' nx' din dout : ℕ) (h : n ≤ nx) (h' : n' ≤ nx')
    (A : (⟨2, ![n, din]⟩ : Shape).Idx → EReal) (X : (⟨2, ![nx, din]⟩ : Shape).Idx → EReal) (C : (⟨2, ![n, 1]⟩ : Shape).Idx → EReal)
    (A' : (⟨2, ![n', din]⟩ : Shape).Idx → EReal) (X' : (⟨2, ![nx', din]⟩ : Shape).Idx → EReal) (C' : (⟨2, ![n', 1]⟩ : Shape).Idx → EReal)
    (WL : (⟨2, ![din, dout]⟩ : Shape).Idx → EReal) (B : (⟨1, ![dout]⟩ : Shape).Idx → EReal) (WR : (⟨2, ![din, dout]⟩ : Shape).Idx → EReal)
    (WL' : (⟨2, ![din, dout]⟩ : Shape).Idx → EReal) (B' : (⟨1, ![dout]⟩ : Shape).Idx → EReal) (WR' : (⟨2, ![din, dout]⟩ : Shape).Idx → EReal)
    (p : Fin n) (p' : Fin n') (q : Fin dout)
    (hA : ∀ k : Fin din, A' (ix2 p' k) = A (ix2 p k))
    (hX : ∀ k : Fin din, X' (ix2 (Fin.castLE h' p') k) = X (ix2 (Fin.castLE h p) k))
    (hC : C' (ix2 p' (0 : Fin 1)) = C (ix2 p (0 : Fin 1)))
    (hWL : ∀ k : Fin din, WL' (ix2 k q) = WL (ix2 k q)) (hWR : ∀ k : Fin din, WR' (ix2 k q) = WR (ix2 k q))
    (hB : B' (ix1 q) = B (ix1 q)) :
    mix n' nx' din dout h' A' X' C' WL' B' WR' p' q = mix n nx din dout h A X C WL B WR p q := by
  unfold mix
  rw [hC, hB]
  simp only [hA, hX, hWL, hWR]

end SageSpec

end
-- ==== Proof.Blocks0.lean ====
/-
  From blocks to the array: what launch 0 leaves in its output array, for ANY contents it is entered with.

  The launch walks a grid of 50 points. At point `t` it stages rows `2000·t … 2000·t + 1999` of the summed messages, of
  the node features and of the counts, together with the whole weight matrices and bias, runs the body on them, and writes
  the body's block back to the same rows of the output. The body's block is the layer computed from those rows alone, and a
  layer's row depends only on the same row of its operands, so what point `t` writes is block `t` of the layer of the WHOLE
  operand arrays. The blocks tile the output (row `r` lies in block `r / 2000`), so after the launch the output array is
  the layer, at every index.
-/
import proofs.«129243_j55078660603921_2_alg».proof.Proof.Gen.KernelIdeal.Frame
import proofs.«129243_j55078660603921_2_alg».proof.Proof.Tile0
import proofs.«129243_j55078660603921_2_alg».proof.Proof.LayerRows
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- ONE BLOCK OF ROWS: the body's block computed from blocks that are rows `r0 … r0 + 1999` of the operand arrays (and
    from weights and bias that are the whole arrays) is, entry by entry, the layer of the whole arrays at the same rows. -/
theorem block_entry (A : S100000x128.Idx → EReal) (X : S500000x128.Idx → EReal) (C : S100000x1.Idx → EReal)
    (WL WR : S128x256.Idx → EReal) (B : S256.Idx → EReal)
    (a x : Vec Ideal S2000x128 .f32) (cn : Vec Ideal S2000x1 .f32) (wl wr : Vec Ideal S128x256 .f32) (b : Vec Ideal S256 .f32) (r0 : ℕ)
    (ha : ∀ (p : Fin 2000) (k : Fin 128) (P : Fin 100000), P.val = r0 + p.val → a (ix2 p k) = A (ix2 P k))
    (hx : ∀ (p : Fin 2000) (k : Fin 128) (P : Fin 500000), P.val = r0 + p.val → x (ix2 p k) = X (ix2 P k))
    (hc : ∀ (p : Fin 2000) (P : Fin 100000), P.val = r0 + p.val → cn (ix2 p (0 : Fin 1)) = C (ix2 P (0 : Fin 1)))
    (hwl : ∀ (k : Fin 128) (q : Fin 256), wl (ix2 k q) = WL (ix2 k q))
    (hwr : ∀ (k : Fin 128) (q : Fin 256), wr (ix2 k q) = WR (ix2 k q))
    (hb : ∀ q : Fin 256, b (ix1 q) = B (ix1 q))
    (y : S2000x256.Idx) (i : S100000x256.Idx) (hi0 : (i 0).val = r0 + (y 0).val) (hi1 : (i 1).val = (y 1).val) :
    k0_pay1 (F := Ideal) a x wl wr b cn y = SageSpec.layer0 A X C WL B WR i := by
  obtain ⟨p, q, rfl⟩ : ∃ (p : Fin 2000) (q : Fin 256), y = ix2 p q := ⟨y 0, y 1, eq_ix2 y⟩
  obtain ⟨P, Q, rfl⟩ : ∃ (P : Fin 100000) (Q : Fin 256), i = ix2 P Q := ⟨i 0, i 1, eq_ix2 i⟩
  have hP : P.val = r0 + p.val := hi0
  have hQ : Q = q := Fin.ext hi1
  subst hQ
  rw [Tile0.pay_entry]
  unfold SageSpec.layer0
  refine congrArg (max · SageSpec.zeroW) ?_
  exact SageSpec.mix_row_local 100000 500000 2000 2000 128 256 _ le_rfl A X C a x cn WL B WR wl b wr P p Q
    (fun k => ha p k P hP) (fun k => hx p k (Fin.castLE (by norm_num) P) hP) (hc p P hP) (fun k => hwl k Q) (fun k => hwr k Q) (hb Q)

/-- The printed index maps, decided over the grid: at point `t` the three row-blocked input windows and the output
    window are at block `t` of the rows and block `0` of the columns, the weights and the bias at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the layer of the operand arrays as the launch finds them. -/
theorem flushed_eq (c : Dev nD) (t : Fin cfg0.N) :
    (dat0 V c).flushed 6 t = ((cfg0.win 6).blk t).view.read (Elt Ideal)
      (SageSpec.layer0 (V c main_v9) (V c main_arg0) (V c main_v14) (V c main_v15) (V c main_arg2) (V c main_v16)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x256) hz2, View.ld_unit_zero (S := S2000x1) hz2, View.ld_unit_zero (S := S256) hz1]
  obtain ⟨e00, e01, e10, e11, e20, e21, e30, e31, e40, e50, e51, e60, e61⟩ := idx_facts t
  funext y
  show k0_pay1 (F := Ideal) (iblk0 V c 0 t) (iblk0 V c 1 t) (iblk0 V c 3 t) (iblk0 V c 5 t) (iblk0 V c 4 t) (iblk0 V c 2 t) y
    = SageSpec.layer0 (V c main_v9) (V c main_arg0) (V c main_v14) (V c main_v15) (V c main_arg2) (V c main_v16) (((cfg0.win 6).blk t).view.emb y)
  refine block_entry (V c main_v9) (V c main_arg0) (V c main_v14) (V c main_v15) (V c main_v16) (V c main_arg2)
    (iblk0 V c 0 t) (iblk0 V c 1 t) (iblk0 V c 2 t) (iblk0 V c 3 t) (iblk0 V c 5 t) (iblk0 V c 4 t) (t.val * 2000)
    ?_ ?_ ?_ ?_ ?_ ?_ y (((cfg0.win 6).blk t).view.emb y) ?_ ?_
  · intro p k P hP
    show V c main_v9 (((cfg0.win 0).blk t).view.emb (ix2 p k)) = V c main_v9 (ix2 P k)
    refine congrArg _ (funext fun a => Fin.ext ?_)
    match a with
    | ⟨0, _⟩ => show win0_0.index t (0 : Fin 2) * 2000 + 1 * p.val = P.val; rw [e00, hP]; omega
    | ⟨1, _⟩ => show win0_0.index t (1 : Fin 2) * 128 + 1 * k.val = k.val; rw [e01]; omega
  · intro p k P hP
    show V c main_arg0 (((cfg0.win 1).blk t).view.emb (ix2 p k)) = V c main_arg0 (ix2 P k)
    refine congrArg _ (funext fun a => Fin.ext ?_)
    match a with
    | ⟨0, _⟩ => show win0_1.index t (0 : Fin 2) * 2000 + 1 * p.val = P.val; rw [e10, hP]; omega
    | ⟨1, _⟩ => show win0_1.index t (1 : Fin 2) * 128 + 1 * k.val = k.val; rw [e11]; omega
  · intro p P hP
    show V c main_v14 (((cfg0.win 2).blk t).view.emb (ix2 p (0 : Fin 1))) = V c main_v14 (ix2 P (0 : Fin 1))
    refine congrArg _ (funext fun a => Fin.ext ?_)
    match a with
    | ⟨0, _⟩ => show win0_2.index t (0 : Fin 2) * 2000 + 1 * p.val = P.val; rw [e20, hP]; omega
    | ⟨1, _⟩ => show win0_2.index t (1 : Fin 2) * 1 + 1 * 0 = 0; rw [e21]
  · intro k q
    show V c main_v15 (((cfg0.win 3).blk t).view.emb (ix2 k q)) = V c main_v15 (ix2 k q)
    refine congrArg _ (funext fun a => Fin.ext ?_)
    match a with
    | ⟨0, _⟩ => show win0_3.index t (0 : Fin 2) * 128 + 1 * k.val = k.val; rw [e30]; omega
    | ⟨1, _⟩ => show win0_3.index t (1 : Fin 2) * 256 + 1 * q.val = q.val; rw [e31]; omega
  · intro k q
    show V c main_v16 (((cfg0.win 5).blk t).view.emb (ix2 k q)) = V c main_v16 (ix2 k q)
    refine congrArg _ (funext fun a => Fin.ext ?_)
    match a with
    | ⟨0, _⟩ => show win0_5.index t (0 : Fin 2) * 128 + 1 * k.val = k.val; rw [e50]; omega
    | ⟨1, _⟩ => show win0_5.index t (1 : Fin 2) * 256 + 1 * q.val = q.val; rw [e51]; omega
  · intro q
    show V c main_arg2 (((cfg0.win 4).blk t).view.emb (ix1 q)) = V c main_arg2 (ix1 q)
    refine congrArg _ (funext fun a => Fin.ext ?_)
    match a with
    | ⟨0, _⟩ => show win0_4.index t (0 : Fin 1) * 256 + 1 * q.val = q.val; rw [e40]; omega
  · show win0_6.index t (0 : Fin 2) * 2000 + 1 * (y 0).val = t.val * 2000 + (y 0).val
    rw [e60]; omega
  · show win0_6.index t (1 : Fin 2) * 256 + 1 * (y 1).val = (y 1).val
    rw [e61]; omega

/-- An index of the output array is in point `t`'s block iff each coordinate is in the block's range on its axis. -/
theorem mem_blk (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v17).slice (win0_6.rect t)).set ↔ _
  rw [View.set_slice_whole, Rect.mem_set_unit]
  exact Iff.rfl

/-- The blocks tile the output: row `r` is in the block of point `r / 2000`. -/
theorem cover (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  refine ⟨⟨(i 0).val / 2000, by show _ < grid0.N; rw [N_0]; omega⟩, flush0_6 _, ?_⟩
  rw [mem_blk]
  obtain ⟨-, -, -, -, -, -, -, -, -, -, -, e60, e61⟩ := idx_facts ⟨(i 0).val / 2000, by show _ < grid0.N; rw [N_0]; omega⟩
  intro a
  match a with
  | ⟨0, _⟩ =>
    show win0_6.index _ (0 : Fin 2) * 2000 ≤ (i 0).val ∧ (i 0).val < win0_6.index _ (0 : Fin 2) * 2000 + 2000
    rw [e60]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [e61]; omega

/-- THE OUTPUT ARRAY AFTER THE LAUNCH is the layer of the operand arrays as the launch found them. -/
theorem final (c : Dev nD) : (dat0 V c).arrAt 6 cfg0.N
    = SageSpec.layer0 (V c main_v9) (V c main_arg0) (V c main_v14) (V c main_v15) (V c main_arg2) (V c main_v16) :=
  (dat0 V c).arrAt_eq_of_cover 6 _ (fun t _ => flushed_eq V c t) cover

end Cert.KernelIdeal.Blocks0

end
-- ==== Proof.Tile1.lean ====
/-
  What one grid point of launch 1 computes: the body's block at an entry.

  The body is handed a block of 1000 rows of the summed messages, the same 1000 rows of the node features and of the message
  counts, and the whole weight matrices (256 by 128) and bias. It forms two matrix products into zero accumulators, scales the
  first by the reciprocal of the count clamped below by one (one value per row, spread along the row), adds the second and
  the bias (one value per column, spread down the column). Read at entry `(p, q)` each product is the sum over the 256
  contracted features, the spread count is row `p`'s and the spread bias column `q`'s: the entry is the layer's entry on the
  block's own rows.
-/
import proofs.«129243_j55078660603921_2_alg».proof.Proof.Gen.KernelIdeal.Skeleton
import proofs.«129243_j55078660603921_2_alg».proof.Proof.LayerSpec
import proofs.«129243_j55078660603921_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile1

open Cert.KernelIdeal Cert.KernelIdeal.Gen Idealize.ShloMosaic Idealize.ShloMosaic.ValueIdx

/-- The left operand of the block's matrix product is read along the output's row. -/
theorem lhs_row (i : S1000x128.Idx) (k : dot_S1000x256_S256x128_S1000x128_1_0_0_1_n_n.contr.Idx) : (dot_S1000x256_S256x128_S1000x128_1_0_0_1_n_n.lhsIdx i k 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl

/-- The right operand of the block's matrix product is read down the output's column. -/
theorem rhs_col (i : S1000x128.Idx) (k : dot_S1000x256_S256x128_S1000x128_1_0_0_1_n_n.contr.Idx) : (dot_S1000x256_S256x128_S1000x128_1_0_0_1_n_n.rhsIdx i k 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- A block's matrix product into a zero accumulator, at entry `(p, q)`: the sum over the 256 contracted features of the
    left operand's row `p` times the right operand's column `q`. -/
theorem dot_entry {φ₁ φ₂ : FTy} (l : FVec Ideal S1000x256 φ₁) (r : FVec Ideal S256x128 φ₂) (p : Fin 1000) (q : Fin 128) :
    matmul dot_S1000x256_S256x128_S1000x128_1_0_0_1_n_n none l r (constant S1000x128 .f32 0x00000000#32) (ix2 p q) = ∑ k : Fin 256, l (ix2 p k) * r (ix2 k q) := by
  refine (Ideal.matmul_constant_zero_apply dot_S1000x256_S256x128_S1000x128_1_0_0_1_n_n none l r (ix2 p q)).trans ?_
  rw [← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q) ((contrEquiv1 dot_S1000x256_S256x128_S1000x128_1_0_0_1_n_n 256 rfl rfl).symm k) = ix2 p k := funext fun a => Fin.ext (by
    match a with
    | ⟨0, _⟩ => exact lhs_row _ _
    | ⟨1, _⟩ => exact (dot_S1000x256_S256x128_S1000x128_1_0_0_1_n_n.lhsIdx_val_of_single rfl _ _).trans hk)
  have er : dot_S1000x256_S256x128_S1000x128_1_0_0_1_n_n.rhsIdx (ix2 p q) ((contrEquiv1 dot_S1000x256_S256x128_S1000x128_1_0_0_1_n_n 256 rfl rfl).symm k) = ix2 k q := funext fun a => Fin.ext (by
    match a with
    | ⟨0, _⟩ => exact (dot_S1000x256_S256x128_S1000x128_1_0_0_1_n_n.rhsIdx_val_of_single rfl _ _).trans hk
    | ⟨1, _⟩ => exact rhs_col _ _)
  rw [el, er]

/-- WHAT THE BODY STORES, at entry `(p, q)` of its block: the layer's entry computed from the block's own 1000 rows alone
    (the block of summed messages, the block of the nodes' own features and the block of counts taken as whole operands).
    Rounding the operands to a narrower format before the products changes nothing on the extended reals. -/
theorem pay_entry (a x : Vec Ideal S1000x256 .f32) (wl wr : Vec Ideal S256x128 .f32) (b : Vec Ideal S128 .f32) (cn : Vec Ideal S1000x1 .f32)
    (p : Fin 1000) (q : Fin 128) :
    k1_pay1 (F := Ideal) a x wl wr b cn (ix2 p q)
      = SageSpec.mix 1000 1000 256 128 le_rfl a x cn wl b wr p q := by
  unfold k1_pay1 SageSpec.mix
  simp only [shapeCast_self]
  simp only [maximumf_apply, addf_apply, mulf_apply, broadcast_apply]
  rw [dot_entry, dot_entry, LibColumnBroadcast.broadcastTo_a1_ab_apply, broadcastTo_1b_ab_apply, shapeCast_a_1a_apply]
  rfl

end Cert.KernelIdeal.Tile1

end
-- ==== Proof.Blocks1.lean ====
/-
  From blocks to the array: what launch 1 leaves in its output array, for ANY contents it is entered with.

  The launch walks a grid of 25 points. At point `t` it stages rows `1000·t … 1000·t + 999` of the summed messages, of
  the node features and of the counts, together with the whole weight matrices and bias, runs the body on them, and writes
  the body's block back to the same rows of the output. The body's block is the layer computed from those rows alone, and a
  layer's row depends only on the same row of its operands, so what point `t` writes is block `t` of the layer of the WHOLE
  operand arrays. The blocks tile the output (row `r` lies in block `r / 1000`), so after the launch the output array is
  the layer, at every index.
-/
import proofs.«129243_j55078660603921_2_alg».proof.Proof.Gen.KernelIdeal.Frame
import proofs.«129243_j55078660603921_2_alg».proof.Proof.Tile1
import proofs.«129243_j55078660603921_2_alg».proof.Proof.LayerRows
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- ONE BLOCK OF ROWS: the body's block computed from blocks that are rows `r0 … r0 + 999` of the operand arrays (and
    from weights and bias that are the whole arrays) is, entry by entry, the layer of the whole arrays at the same rows. -/
theorem block_entry (A : S25000x256.Idx → EReal) (X : S100000x256.Idx → EReal) (C : S25000x1.Idx → EReal)
    (WL WR : S256x128.Idx → EReal) (B : S128.Idx → EReal)
    (a x : Vec Ideal S1000x256 .f32) (cn : Vec Ideal S1000x1 .f32) (wl wr : Vec Ideal S256x128 .f32) (b : Vec Ideal S128 .f32) (r0 : ℕ)
    (ha : ∀ (p : Fin 1000) (k : Fin 256) (P : Fin 25000), P.val = r0 + p.val → a (ix2 p k) = A (ix2 P k))
    (hx : ∀ (p : Fin 1000) (k : Fin 256) (P : Fin 100000), P.val = r0 + p.val → x (ix2 p k) = X (ix2 P k))
    (hc : ∀ (p : Fin 1000) (P : Fin 25000), P.val = r0 + p.val → cn (ix2 p (0 : Fin 1)) = C (ix2 P (0 : Fin 1)))
    (hwl : ∀ (k : Fin 256) (q : Fin 128), wl (ix2 k q) = WL (ix2 k q))
    (hwr : ∀ (k : Fin 256) (q : Fin 128), wr (ix2 k q) = WR (ix2 k q))
    (hb : ∀ q : Fin 128, b (ix1 q) = B (ix1 q))
    (y : S1000x128.Idx) (i : S25000x128.Idx) (hi0 : (i 0).val = r0 + (y 0).val) (hi1 : (i 1).val = (y 1).val) :
    k1_pay1 (F := Ideal) a x wl wr b cn y = SageSpec.layer1 A X C WL B WR i := by
  obtain ⟨p, q, rfl⟩ : ∃ (p : Fin 1000) (q : Fin 128), y = ix2 p q := ⟨y 0, y 1, eq_ix2 y⟩
  obtain ⟨P, Q, rfl⟩ : ∃ (P : Fin 25000) (Q : Fin 128), i = ix2 P Q := ⟨i 0, i 1, eq_ix2 i⟩
  have hP : P.val = r0 + p.val := hi0
  have hQ : Q = q := Fin.ext hi1
  subst hQ
  rw [Tile1.pay_entry]
  unfold SageSpec.layer1
  show _ = SageSpec.mix _ _ _ _ _ A X C WL B WR P Q
  exact SageSpec.mix_row_local 25000 100000 1000 1000 256 128 _ le_rfl A X C a x cn WL B WR wl b wr P p Q
    (fun k => ha p k P hP) (fun k => hx p k (Fin.castLE (by norm_num) P) hP) (hc p P hP) (fun k => hwl k Q) (fun k => hwr k Q) (hb Q)

/-- The printed index maps, decided over the grid: at point `t` the three row-blocked input windows and the output
    window are at block `t` of the rows and block `0` of the columns, the weights and the bias at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer of the operand arrays as the launch finds them. -/
theorem flushed_eq (c : Dev nD) (t : Fin cfg1.N) :
    (dat1 V c).flushed 6 t = ((cfg1.win 6).blk t).view.read (Elt Ideal)
      (SageSpec.layer1 (V c main_v27) (V c main_v17) (V c main_v32) (V c main_v33) (V c main_arg5) (V c main_v34)) := by
  show (cfg1.win 6).cut (grid1.coords t) ((dat1 V c).after 6 t) = _
  rw [after1_6]
  unfold out1_6
  rw [View.canon_unit_zero hz2]
  simp only [View.ld_unit_zero (S := S1000x256) hz2, View.ld_unit_zero (S := S256x128) hz2, View.ld_unit_zero (S := S1000x1) hz2, View.ld_unit_zero (S := S128) hz1]
  obtain ⟨e00, e01, e10, e11, e20, e21, e30, e31, e40, e50, e51, e60, e61⟩ := idx_facts t
  funext y
  show k1_pay1 (F := Ideal) (iblk1 V c 0 t) (iblk1 V c 1 t) (iblk1 V c 3 t) (iblk1 V c 5 t) (iblk1 V c 4 t) (iblk1 V c 2 t) y
    = SageSpec.layer1 (V c main_v27) (V c main_v17) (V c main_v32) (V c main_v33) (V c main_arg5) (V c main_v34) (((cfg1.win 6).blk t).view.emb y)
  refine block_entry (V c main_v27) (V c main_v17) (V c main_v32) (V c main_v33) (V c main_v34) (V c main_arg5)
    (iblk1 V c 0 t) (iblk1 V c 1 t) (iblk1 V c 2 t) (iblk1 V c 3 t) (iblk1 V c 5 t) (iblk1 V c 4 t) (t.val * 1000)
    ?_ ?_ ?_ ?_ ?_ ?_ y (((cfg1.win 6).blk t).view.emb y) ?_ ?_
  · intro p k P hP
    show V c main_v27 (((cfg1.win 0).blk t).view.emb (ix2 p k)) = V c main_v27 (ix2 P k)
    refine congrArg _ (funext fun a => Fin.ext ?_)
    match a with
    | ⟨0, _⟩ => show win1_0.index t (0 : Fin 2) * 1000 + 1 * p.val = P.val; rw [e00, hP]; omega
    | ⟨1, _⟩ => show win1_0.index t (1 : Fin 2) * 256 + 1 * k.val = k.val; rw [e01]; omega
  · intro p k P hP
    show V c main_v17 (((cfg1.win 1).blk t).view.emb (ix2 p k)) = V c main_v17 (ix2 P k)
    refine congrArg _ (funext fun a => Fin.ext ?_)
    match a with
    | ⟨0, _⟩ => show win1_1.index t (0 : Fin 2) * 1000 + 1 * p.val = P.val; rw [e10, hP]; omega
    | ⟨1, _⟩ => show win1_1.index t (1 : Fin 2) * 256 + 1 * k.val = k.val; rw [e11]; omega
  · intro p P hP
    show V c main_v32 (((cfg1.win 2).blk t).view.emb (ix2 p (0 : Fin 1))) = V c main_v32 (ix2 P (0 : Fin 1))
    refine congrArg _ (funext fun a => Fin.ext ?_)
    match a with
    | ⟨0, _⟩ => show win1_2.index t (0 : Fin 2) * 1000 + 1 * p.val = P.val; rw [e20, hP]; omega
    | ⟨1, _⟩ => show win1_2.index t (1 : Fin 2) * 1 + 1 * 0 = 0; rw [e21]
  · intro k q
    show V c main_v33 (((cfg1.win 3).blk t).view.emb (ix2 k q)) = V c main_v33 (ix2 k q)
    refine congrArg _ (funext fun a => Fin.ext ?_)
    match a with
    | ⟨0, _⟩ => show win1_3.index t (0 : Fin 2) * 256 + 1 * k.val = k.val; rw [e30]; omega
    | ⟨1, _⟩ => show win1_3.index t (1 : Fin 2) * 128 + 1 * q.val = q.val; rw [e31]; omega
  · intro k q
    show V c main_v34 (((cfg1.win 5).blk t).view.emb (ix2 k q)) = V c main_v34 (ix2 k q)
    refine congrArg _ (funext fun a => Fin.ext ?_)
    match a with
    | ⟨0, _⟩ => show win1_5.index t (0 : Fin 2) * 256 + 1 * k.val = k.val; rw [e50]; omega
    | ⟨1, _⟩ => show win1_5.index t (1 : Fin 2) * 128 + 1 * q.val = q.val; rw [e51]; omega
  · intro q
    show V c main_arg5 (((cfg1.win 4).blk t).view.emb (ix1 q)) = V c main_arg5 (ix1 q)
    refine congrArg _ (funext fun a => Fin.ext ?_)
    match a with
    | ⟨0, _⟩ => show win1_4.index t (0 : Fin 1) * 128 + 1 * q.val = q.val; rw [e40]; omega
  · show win1_6.index t (0 : Fin 2) * 1000 + 1 * (y 0).val = t.val * 1000 + (y 0).val
    rw [e60]; omega
  · show win1_6.index t (1 : Fin 2) * 128 + 1 * (y 1).val = (y 1).val
    rw [e61]; omega

/-- An index of the output array is in point `t`'s block iff each coordinate is in the block's range on its axis. -/
theorem mem_blk (t : Fin cfg1.N) (i : S25000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v35).slice (win1_6.rect t)).set ↔ _
  rw [View.set_slice_whole, Rect.mem_set_unit]
  exact Iff.rfl

/-- The blocks tile the output: row `r` is in the block of point `r / 1000`. -/
theorem cover (i : S25000x128.Idx) : ∃ t : Fin cfg1.N, (cfg1.win 6).flush t = true ∧ i ∈ ((cfg1.win 6).blk t).view.set := by
  have hi0 : (i 0).val < 25000 := (i 0).isLt
  have hi1 : (i 1).val < 128 := (i 1).isLt
  refine ⟨⟨(i 0).val / 1000, by show _ < grid1.N; rw [N_1]; omega⟩, flush1_6 _, ?_⟩
  rw [mem_blk]
  obtain ⟨-, -, -, -, -, -, -, -, -, -, -, e60, e61⟩ := idx_facts ⟨(i 0).val / 1000, by show _ < grid1.N; rw [N_1]; omega⟩
  intro a
  match a with
  | ⟨0, _⟩ =>
    show win1_6.index _ (0 : Fin 2) * 1000 ≤ (i 0).val ∧ (i 0).val < win1_6.index _ (0 : Fin 2) * 1000 + 1000
    rw [e60]; show (i 0).val / 1000 * 1000 ≤ (i 0).val ∧ (i 0).val < (i 0).val / 1000 * 1000 + 1000; omega
  | ⟨1, _⟩ =>
    show win1_6.index _ (1 : Fin 2) * 128 ≤ (i 1).val ∧ (i 1).val < win1_6.index _ (1 : Fin 2) * 128 + 128
    rw [e61]; omega

/-- THE OUTPUT ARRAY AFTER THE LAUNCH is the layer of the operand arrays as the launch found them. -/
theorem final (c : Dev nD) : (dat1 V c).arrAt 6 cfg1.N
    = SageSpec.layer1 (V c main_v27) (V c main_v17) (V c main_v32) (V c main_v33) (V c main_arg5) (V c main_v34) :=
  (dat1 V c).arrAt_eq_of_cover 6 _ (fun t _ => flushed_eq V c t) cover

end Cert.KernelIdeal.Blocks1

end
-- ==== Proof.Boundaries.lean ====
/-
  The idealized kernel's result as one function of the launch arrays.

  Walking the five boundaries of the run backwards: the result array at the end is what the second launch leaves, the
  second layer of its operands; those operands are what the second stretch of host operations computed from the contents
  the first launch left — the summed messages and counts of the second edge list, gathered from the FIRST launch's result,
  and the second layer's transposed weights; the first launch's result is the first layer of ITS operands, which the first
  stretch computed from the launch arrays. No launch and no host operation writes an argument array, so every argument read
  along the way is the array the program was launched with.
-/
import proofs.«129243_j55078660603921_2_alg».proof.Proof.WholeRun
import proofs.«129243_j55078660603921_2_alg».proof.Proof.Stages
import proofs.«129243_j55078660603921_2_alg».proof.Proof.Blocks0
import proofs.«129243_j55078660603921_2_alg».proof.Proof.Blocks1

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's result, from the launch arrays of core `c`. -/
def hidden (c : Dev nD) : Stages.FArr S100000x256 :=
  SageSpec.layer0
    (Stages.agg0 (m ((c : Thread nD τ).loc main_arg0)) (m ((c : Thread nD τ).loc main_arg7)) (m ((c : Thread nD τ).loc main_arg8)))
    (m ((c : Thread nD τ).loc main_arg0)) (Stages.cnt0 (m ((c : Thread nD τ).loc main_arg8)))
    (Stages.wT0 (m ((c : Thread nD τ).loc main_arg1))) (m ((c : Thread nD τ).loc main_arg2)) (Stages.wT0 (m ((c : Thread nD τ).loc main_arg3)))

/-- The program's result, from the launch arrays of core `c`: the second layer over the first. -/
def output (c : Dev nD) : Stages.FArr S25000x128 :=
  SageSpec.layer1
    (Stages.agg1 (hidden m c) (m ((c : Thread nD τ).loc main_arg9)) (m ((c : Thread nD τ).loc main_arg10)))
    (hidden m c) (Stages.cnt1 (m ((c : Thread nD τ).loc main_arg10)))
    (Stages.wT1 (m ((c : Thread nD τ).loc main_arg4))) (m ((c : Thread nD τ).loc main_arg5)) (Stages.wT1 (m ((c : Thread nD τ).loc main_arg6)))

/-- After the first launch its output array holds the first layer of the launch arrays. -/
theorem hidden_eq (c : Dev nD) : W2 m ρ c (Proc.devRef .tc main_v17) = hidden m c := by
  refine (W2_arr m ρ c 6).trans ?_
  have e9 : V1 m ρ c main_v9 = Stages.agg0 (m ((c : Thread nD τ).loc main_arg0)) (m ((c : Thread nD τ).loc main_arg7)) (m ((c : Thread nD τ).loc main_arg8)) :=
    Stages.first_agg (W0 m ρ c)
  have e0 : V1 m ρ c main_arg0 = m ((c : Thread nD τ).loc main_arg0) := Stages.first_arg0 (W0 m ρ c)
  have e14 : V1 m ρ c main_v14 = Stages.cnt0 (m ((c : Thread nD τ).loc main_arg8)) := Stages.first_cnt (W0 m ρ c)
  have e15 : V1 m ρ c main_v15 = Stages.wT0 (m ((c : Thread nD τ).loc main_arg1)) := Stages.first_wl (W0 m ρ c)
  have e2 : V1 m ρ c main_arg2 = m ((c : Thread nD τ).loc main_arg2) := Stages.first_arg2 (W0 m ρ c)
  have e16 : V1 m ρ c main_v16 = Stages.wT0 (m ((c : Thread nD τ).loc main_arg3)) := Stages.first_wr (W0 m ρ c)
  rw [Blocks0.final (V1 m ρ) c, e9, e0, e14, e15, e2, e16]
  rfl

/-- An argument the first launch does not stage is, after it, what the first stretch left: the launch array. -/
theorem kept_arg4 (c : Dev nD) : W2 m ρ c (Proc.devRef .tc main_arg4) = m ((c : Thread nD τ).loc main_arg4) :=
  (W2_of_ne m ρ c main_arg4 (by decide)).trans (Stages.first_arg4 (W0 m ρ c))
theorem kept_arg5 (c : Dev nD) : W2 m ρ c (Proc.devRef .tc main_arg5) = m ((c : Thread nD τ).loc main_arg5) :=
  (W2_of_ne m ρ c main_arg5 (by decide)).trans (Stages.first_arg5 (W0 m ρ c))
theorem kept_arg6 (c : Dev nD) : W2 m ρ c (Proc.devRef .tc main_arg6) = m ((c : Thread nD τ).loc main_arg6) :=
  (W2_of_ne m ρ c main_arg6 (by decide)).trans (Stages.first_arg6 (W0 m ρ c))
theorem kept_arg9 (c : Dev nD) : W2 m ρ c (Proc.devRef .tc main_arg9) = m ((c : Thread nD τ).loc main_arg9) :=
  (W2_of_ne m ρ c main_arg9 (by decide)).trans (Stages.first_arg9 (W0 m ρ c))
theorem kept_arg10 (c : Dev nD) : W2 m ρ c (Proc.devRef .tc main_arg10) = m ((c : Thread nD τ).loc main_arg10) :=
  (W2_of_ne m ρ c main_arg10 (by decide)).trans (Stages.first_arg10 (W0 m ρ c))

/-- THE RESULT: after the second launch the result array holds the second layer over the first, of the launch arrays. -/
theorem output_eq (c : Dev nD) : W4 m ρ c (Proc.devRef .tc main_v35) = output m c := by
  refine (W4_arr m ρ c 6).trans ?_
  have e27 : V3 m ρ c main_v27 = Stages.agg1 (hidden m c) (m ((c : Thread nD τ).loc main_arg9)) (m ((c : Thread nD τ).loc main_arg10)) :=
    (Stages.second_agg (W2 m ρ c)).trans (by rw [hidden_eq, kept_arg9, kept_arg10])
  have e17 : V3 m ρ c main_v17 = hidden m c := (Stages.second_h (W2 m ρ c)).trans (hidden_eq m ρ c)
  have e32 : V3 m ρ c main_v32 = Stages.cnt1 (m ((c : Thread nD τ).loc main_arg10)) :=
    (Stages.second_cnt (W2 m ρ c)).trans (by rw [kept_arg10])
  have e33 : V3 m ρ c main_v33 = Stages.wT1 (m ((c : Thread nD τ).loc main_arg4)) :=
    (Stages.second_wl (W2 m ρ c)).trans (by rw [kept_arg4])
  have e5 : V3 m ρ c main_arg5 = m ((c : Thread nD τ).loc main_arg5) := (Stages.second_arg5 (W2 m ρ c)).trans (kept_arg5 m ρ c)
  have e34 : V3 m ρ c main_v34 = Stages.wT1 (m ((c : Thread nD τ).loc main_arg6)) :=
    (Stages.second_wr (W2 m ρ c)).trans (by rw [kept_arg6])
  rw [Blocks1.final (V3 m ρ) c, e27, e17, e32, e33, e5, e34]
  rfl

/-- The run of the idealized kernel with its result named: every weakly fair execution terminates without a fault, the
    result array holding `output` of the launch arrays and the argument arrays as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v35) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v35 (by decide))).trans (output_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.KernelIdeal.Whole

end
-- ==== Proof.MeanScale.lean ====
/-
  The one algebraic law that joins the two arrangements of a mean-aggregating layer.

  A graph layer averages the messages that reach a node: the summed messages `a k` (one per input feature `k`) are divided
  by the number of messages `n`, clamped below by one so that an isolated node divides by one, and the averages are then
  mixed by a weight matrix, `∑ k, (a k / max 1 n) * w k`. Because the divisor does not depend on `k` the division may be
  done once, after the mixing: `(∑ k, a k * w k) * (1 / max n 1)`.

  On the extended reals this is not quite the distributive law of a field: a sum may hold `+∞` and `-∞` at once. What makes
  it true is that the factor moved across the sum, `(max n 1)⁻¹`, is a NONNEGATIVE REAL whatever `n` is (the inverse of an
  extended real at least one is a real in `[0, 1]`, and `0` when `n = +∞`), and multiplication by a nonnegative real
  distributes over every sum of extended reals, infinite terms included. No finiteness of the messages or weights is used.
-/
import Idealize.ShloMosaic.PureOps.Ideal

noncomputable section

namespace SageMean

open Idealize.ShloMosaic

/-- Multiplication by a nonnegative real (an extended real that is neither negative nor `+∞`) distributes over a finite
    sum of arbitrary extended reals. -/
theorem sum_mul_of_nonneg_of_ne_top {ι : Type*} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- A count clamped below by one is not zero. -/
theorem clamp_ne_zero (n : EReal) : max n 1 ≠ 0 :=
  (lt_of_lt_of_le zero_lt_one (le_max_right n 1)).ne'

/-- The reciprocal of a clamped count is a nonnegative real. -/
theorem inv_clamp_nonneg (n : EReal) : 0 ≤ (max n 1)⁻¹ :=
  EReal.inv_nonneg_of_nonneg (le_trans zero_le_one (le_max_right n 1))

theorem inv_clamp_ne_top (n : EReal) : (max n 1)⁻¹ ≠ ⊤ := (EReal.inv_lt_top _).ne

/-- The exact quotient by a clamped count is the product with its reciprocal. -/
theorem div_clamp (x n : EReal) : Ideal.div x (max n 1) = x * (max n 1)⁻¹ := by
  unfold Ideal.div
  rw [if_neg (clamp_ne_zero n)]

/-- THE LAW. Dividing each summed message by the clamped count before the mixing (the count clamped as `max 1 n`) is
    scaling the mixed sum by the reciprocal of the clamped count afterwards (the count clamped as `max n 1`). -/
theorem mean_then_mix_eq_mix_then_scale {ι : Type*} [Fintype ι] (a w : ι → EReal) (n : EReal) :
    ∑ k, Ideal.div (a k) (max 1 n) * w k = (∑ k, a k * w k) * Ideal.div 1 (max n 1) := by
  rw [max_comm 1 n, div_clamp 1 n, one_mul, sum_mul_of_nonneg_of_ne_top _ _ (inv_clamp_nonneg n) (inv_clamp_ne_top n)]
  refine Finset.sum_congr rfl fun k _ => ?_
  rw [div_clamp, mul_right_comm]

end SageMean

end
-- ==== Proof.RefLayers.lean ====
/-
  The reference's two layers, each read as the specification's layer.

  The reference computes a mean-aggregating graph layer in this order: it divides each summed message by the node's
  message count clamped below by one, mixes the averages by the transposed weight matrix (a sum over the input
  features), adds the bias, and then adds the node's own features mixed by the second transposed weight matrix; the first
  layer is followed by the rectifier, the second is not. The specification scales the mixed sum of the messages by the
  reciprocal of the clamped count instead, and adds the node's own term before the bias.

  Both theorems are proved entry by entry. At an entry `(p, q)` every operation of the reference is read at an index:
  a broadcast reads its operand at the coordinates it keeps, a slice of the leading rows reads the row of the same
  number, a contraction is the sum over the contracted feature `k` of the left operand at `(p, k)` times the right at
  `(k, q)`. What is left is one law of the extended reals — dividing each term by the clamped count before the mixing
  is scaling the mixed sum afterwards — and the commutativity of the two additions. The summed messages, the message
  counts and the transposed weights are kept as the reference's own terms: nothing about them is used.
-/
import proofs.«129243_j55078660603921_2_alg».proof.Proof.Gen.ReferenceIdeal.Read
import proofs.«129243_j55078660603921_2_alg».proof.Proof.LayerSpec
import proofs.«129243_j55078660603921_2_alg».proof.Proof.MeanScale
import Idealize.ShloMosaic.Lib.ValueIdx
import Idealize.ShloMosaic.Lib.Pipeline.Value

noncomputable section

namespace Cert.ReferenceIdeal.RefLayers

open Cert.ReferenceIdeal Cert.ReferenceIdeal.Gen Cert.ReferenceIdeal.Read Idealize.ShloMosaic

/-! ## The first layer -/

/-- The left operand of the neighbour product is read at row `p`, column `k`. -/
theorem lidx20 (p : Fin 100000) (q : Fin 256) (k : Fin 128) : lidx_main_v20 (ValueIdx.ix2 p q) k = ValueIdx.ix2 p k :=
  funext fun a => Fin.ext (by match a with | ⟨0, _⟩ => rfl | ⟨1, _⟩ => rfl)
/-- Its right operand at row `k`, column `q`. -/
theorem ridx20 (p : Fin 100000) (q : Fin 256) (k : Fin 128) : ridx_main_v20 (ValueIdx.ix2 p q) k = ValueIdx.ix2 k q :=
  funext fun a => Fin.ext (by match a with | ⟨0, _⟩ => rfl | ⟨1, _⟩ => rfl)
/-- The same two facts for the product of the node's own features. -/
theorem lidx25 (p : Fin 100000) (q : Fin 256) (k : Fin 128) : lidx_main_v25 (ValueIdx.ix2 p q) k = ValueIdx.ix2 p k :=
  funext fun a => Fin.ext (by match a with | ⟨0, _⟩ => rfl | ⟨1, _⟩ => rfl)
theorem ridx25 (p : Fin 100000) (q : Fin 256) (k : Fin 128) : ridx_main_v25 (ValueIdx.ix2 p q) k = ValueIdx.ix2 k q :=
  funext fun a => Fin.ext (by match a with | ⟨0, _⟩ => rfl | ⟨1, _⟩ => rfl)
/-- The clamped count broadcast along the features is read at the node `p`, whatever the feature. -/
theorem cidx0 (p : Fin 100000) (k : Fin 128) : idx_main_v16 (idx_main_v17 (ValueIdx.ix2 p k)) = ValueIdx.ix1 p :=
  funext fun a => Fin.ext (by match a with | ⟨0, _⟩ => rfl)
/-- The bias broadcast along the nodes is read at the output feature `q`, whatever the node. -/
theorem bidx0 (p : Fin 100000) (q : Fin 256) : idx_main_v21 (idx_main_v22 (ValueIdx.ix2 p q)) = ValueIdx.ix1 q :=
  funext fun a => Fin.ext (by match a with | ⟨0, _⟩ => rfl)
/-- A target node's own row is the row of the same number among the source nodes. -/
theorem sidx0 (p : Fin 100000) (k : Fin 128) :
    idx_main_v0 (ValueIdx.ix2 p k) = ValueIdx.ix2 (Fin.castLE (by norm_num : 100000 ≤ 500000) p) k :=
  funext fun a => Fin.ext (by match a with | ⟨0, _⟩ => rfl | ⟨1, _⟩ => rfl)

/-- The averaged messages at `(p, k)`: the summed messages divided by the count of node `p` clamped below by one. -/
theorem v18_at (x0 : (⟨S500000x128, .f32⟩ : BufTy).Contents (Elt Ideal)) (x7 x8 : (⟨S1600000, .i32⟩ : BufTy).Contents (Elt Ideal)) (p : Fin 100000) (k : Fin 128) :
    val_main_v18 (F := Ideal) x0 x7 x8 (ValueIdx.ix2 p k)
      = Ideal.div (val_main_v10 (F := Ideal) x0 x7 x8 (ValueIdx.ix2 p k)) (max (Ideal.ofBits .f32 0x3F800000#32) (val_main_v14 (F := Ideal) x8 (ValueIdx.ix1 p))) := by
  rw [val_main_v18_apply, val_main_v17_apply, val_main_v16_apply, val_main_v15_apply, val_main_call0_v1_apply, val_main_call0_v0_apply, val_main_cst_3_apply, cidx0]
  rfl

/-- The first layer of the reference at `(p, q)`, in the order the reference computes it: the averages mixed, plus the
    bias, plus the node's own mixed features, rectified. -/
theorem v27_at (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x7 x8 : (⟨S1600000, .i32⟩ : BufTy).Contents (Elt Ideal)) (p : Fin 100000) (q : Fin 256) :
    val_main_v27 (F := Ideal) x0 x1 x2 x3 x7 x8 (ValueIdx.ix2 p q)
      = max (((∑ k : Fin 128, Ideal.div (val_main_v10 (F := Ideal) x0 x7 x8 (ValueIdx.ix2 p k)) (max (Ideal.ofBits .f32 0x3F800000#32) (val_main_v14 (F := Ideal) x8 (ValueIdx.ix1 p))) * val_main_v19 (F := Ideal) x1 (ValueIdx.ix2 k q))
              + x2 (ValueIdx.ix1 q))
            + ∑ k : Fin 128, x0 (ValueIdx.ix2 (Fin.castLE (by norm_num : 100000 ≤ 500000) p) k) * val_main_v24 (F := Ideal) x3 (ValueIdx.ix2 k q))
          (Ideal.ofBits .f32 0x00000000#32) := by
  rw [val_main_v27_apply, val_main_v26_apply, val_main_v23_apply, val_main_v20_apply, val_main_v25_apply, val_main_v22_apply, val_main_v21_apply, val_main_call1_v0_apply, val_main_call1_cst_apply, bidx0]
  simp only [lidx20, ridx20, lidx25, ridx25, v18_at, val_main_v0_apply, sidx0]
  rfl

/-- The counts as a column: entry `(p, 0)` is the count of node `p`. -/
theorem ccol0 (x8 : (⟨S1600000, .i32⟩ : BufTy).Contents (Elt Ideal)) (p : Fin 100000) :
    broadcastInDim S100000x1 ![0] bcast_S100000_S100000x1_0 (val_main_v14 (F := Ideal) x8) (ValueIdx.ix2 p (0 : Fin 1))
      = val_main_v14 (F := Ideal) x8 (ValueIdx.ix1 p) :=
  broadcastInDim_apply _ bcast_S100000_S100000x1_0 (val_main_v14 (F := Ideal) x8) (ValueIdx.ix2 p (0 : Fin 1)) (ValueIdx.ix1 p) (fun a => match a with
    | ⟨0, _⟩ => by show p.val = if (100000 : Nat) = 1 then 0 else p.val; rw [if_neg (by decide)])

/-- The specification's first layer at `(p, q)`. -/
theorem layer0_at (A : (⟨2, ![100000, 128]⟩ : Shape).Idx → EReal) (X : (⟨2, ![500000, 128]⟩ : Shape).Idx → EReal)
    (C : (⟨2, ![100000, 1]⟩ : Shape).Idx → EReal) (WL : (⟨2, ![128, 256]⟩ : Shape).Idx → EReal)
    (B : (⟨1, ![256]⟩ : Shape).Idx → EReal) (WR : (⟨2, ![128, 256]⟩ : Shape).Idx → EReal) (p : Fin 100000) (q : Fin 256) :
    SageSpec.layer0 A X C WL B WR (ValueIdx.ix2 p q)
      = max (((∑ k : Fin 128, A (ValueIdx.ix2 p k) * WL (ValueIdx.ix2 k q)) * Ideal.div SageSpec.oneW (max (C (ValueIdx.ix2 p (0 : Fin 1))) SageSpec.oneW)
              + ∑ k : Fin 128, X (ValueIdx.ix2 (Fin.castLE (by norm_num : 100000 ≤ 500000) p) k) * WR (ValueIdx.ix2 k q))
            + B (ValueIdx.ix1 q)) SageSpec.zeroW := rfl

/-- THE FIRST LAYER. The reference's first layer is the specification's, on the reference's own summed messages,
    counts (as a column) and transposed weights: dividing before the mixing is scaling after it, and the bias and the
    node's own term are added in the other order. -/
theorem layer0_eq (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x7 x8 : (⟨S1600000, .i32⟩ : BufTy).Contents (Elt Ideal)) :
    val_main_v27 (F := Ideal) x0 x1 x2 x3 x7 x8
      = SageSpec.layer0 (val_main_v10 (F := Ideal) x0 x7 x8) x0 (broadcastInDim S100000x1 ![0] bcast_S100000_S100000x1_0 (val_main_v14 (F := Ideal) x8)) (val_main_v19 (F := Ideal) x1) x2 (val_main_v24 (F := Ideal) x3) := by
  funext i
  obtain ⟨p, q, rfl⟩ : ∃ (p : Fin 100000) (q : Fin 256), i = ValueIdx.ix2 p q := ⟨i 0, i 1, ValueIdx.eq_ix2 i⟩
  have h1 : Ideal.ofBits .f32 0x3F800000#32 = (1 : EReal) := SageSpec.one_word
  rw [v27_at, layer0_at, ccol0, SageSpec.one_word, h1,
    SageMean.mean_then_mix_eq_mix_then_scale (fun k : Fin 128 => val_main_v10 (F := Ideal) x0 x7 x8 (ValueIdx.ix2 p k))
      (fun k : Fin 128 => val_main_v19 (F := Ideal) x1 (ValueIdx.ix2 k q)) (val_main_v14 (F := Ideal) x8 (ValueIdx.ix1 p)),
    add_right_comm]

/-! ## The second layer -/

/-- The left operand of the neighbour product is read at row `p`, column `k`. -/
theorem lidx48 (p : Fin 25000) (q : Fin 128) (k : Fin 256) : lidx_main_v48 (ValueIdx.ix2 p q) k = ValueIdx.ix2 p k :=
  funext fun a => Fin.ext (by match a with | ⟨0, _⟩ => rfl | ⟨1, _⟩ => rfl)
/-- Its right operand at row `k`, column `q`. -/
theorem ridx48 (p : Fin 25000) (q : Fin 128) (k : Fin 256) : ridx_main_v48 (ValueIdx.ix2 p q) k = ValueIdx.ix2 k q :=
  funext fun a => Fin.ext (by match a with | ⟨0, _⟩ => rfl | ⟨1, _⟩ => rfl)
/-- The same two facts for the product of the node's own features. -/
theorem lidx53 (p : Fin 25000) (q : Fin 128) (k : Fin 256) : lidx_main_v53 (ValueIdx.ix2 p q) k = ValueIdx.ix2 p k :=
  funext fun a => Fin.ext (by match a with | ⟨0, _⟩ => rfl | ⟨1, _⟩ => rfl)
theorem ridx53 (p : Fin 25000) (q : Fin 128) (k : Fin 256) : ridx_main_v53 (ValueIdx.ix2 p q) k = ValueIdx.ix2 k q :=
  funext fun a => Fin.ext (by match a with | ⟨0, _⟩ => rfl | ⟨1, _⟩ => rfl)
/-- The clamped count broadcast along the features is read at the node `p`, whatever the feature. -/
theorem cidx1 (p : Fin 25000) (k : Fin 256) : idx_main_v44 (idx_main_v45 (ValueIdx.ix2 p k)) = ValueIdx.ix1 p :=
  funext fun a => Fin.ext (by match a with | ⟨0, _⟩ => rfl)
/-- The bias broadcast along the nodes is read at the output feature `q`, whatever the node. -/
theorem bidx1 (p : Fin 25000) (q : Fin 128) : idx_main_v49 (idx_main_v50 (ValueIdx.ix2 p q)) = ValueIdx.ix1 q :=
  funext fun a => Fin.ext (by match a with | ⟨0, _⟩ => rfl)
/-- A target node's own row is the row of the same number among the first layer's nodes. -/
theorem sidx1 (p : Fin 25000) (k : Fin 256) :
    idx_main_v28 (ValueIdx.ix2 p k) = ValueIdx.ix2 (Fin.castLE (by norm_num : 25000 ≤ 100000) p) k :=
  funext fun a => Fin.ext (by match a with | ⟨0, _⟩ => rfl | ⟨1, _⟩ => rfl)

/-- The averaged messages at `(p, k)`: the summed messages divided by the count of node `p` clamped below by one. -/
theorem v46_at (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x7 x8 : (⟨S1600000, .i32⟩ : BufTy).Contents (Elt Ideal)) (x9 x10 : (⟨S400000, .i32⟩ : BufTy).Contents (Elt Ideal)) (p : Fin 25000) (k : Fin 256) :
    val_main_v46 (F := Ideal) x0 x1 x2 x3 x7 x8 x9 x10 (ValueIdx.ix2 p k)
      = Ideal.div (val_main_v38 (F := Ideal) x0 x1 x2 x3 x7 x8 x9 x10 (ValueIdx.ix2 p k)) (max (Ideal.ofBits .f32 0x3F800000#32) (val_main_v42 (F := Ideal) x10 (ValueIdx.ix1 p))) := by
  rw [val_main_v46_apply, val_main_v45_apply, val_main_v44_apply, val_main_v43_apply, val_main_call2_v1_apply, val_main_call2_v0_apply, val_main_cst_9_apply, cidx1]
  rfl

/-- The second layer of the reference at `(p, q)`, in the order the reference computes it: the averages mixed, plus the
    bias, plus the node's own first-layer features mixed. -/
theorem v54_at (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 x8 : (⟨S1600000, .i32⟩ : BufTy).Contents (Elt Ideal)) (x9 x10 : (⟨S400000, .i32⟩ : BufTy).Contents (Elt Ideal)) (p : Fin 25000) (q : Fin 128) :
    val_main_v54 (F := Ideal) x0 x1 x2 x3 x4 x5 x6 x7 x8 x9 x10 (ValueIdx.ix2 p q)
      = ((∑ k : Fin 256, Ideal.div (val_main_v38 (F := Ideal) x0 x1 x2 x3 x7 x8 x9 x10 (ValueIdx.ix2 p k)) (max (Ideal.ofBits .f32 0x3F800000#32) (val_main_v42 (F := Ideal) x10 (ValueIdx.ix1 p))) * val_main_v47 (F := Ideal) x4 (ValueIdx.ix2 k q))
            + x5 (ValueIdx.ix1 q))
          + ∑ k : Fin 256, val_main_v27 (F := Ideal) x0 x1 x2 x3 x7 x8 (ValueIdx.ix2 (Fin.castLE (by norm_num : 25000 ≤ 100000) p) k) * val_main_v52 (F := Ideal) x6 (ValueIdx.ix2 k q) := by
  rw [val_main_v54_apply, val_main_v51_apply, val_main_v48_apply, val_main_v53_apply, val_main_v50_apply, val_main_v49_apply, bidx1]
  simp only [lidx48, ridx48, lidx53, ridx53, v46_at, val_main_v28_apply, sidx1]
  rfl

/-- The counts as a column: entry `(p, 0)` is the count of node `p`. -/
theorem ccol1 (x10 : (⟨S400000, .i32⟩ : BufTy).Contents (Elt Ideal)) (p : Fin 25000) :
    broadcastInDim S25000x1 ![0] bcast_S25000_S25000x1_0 (val_main_v42 (F := Ideal) x10) (ValueIdx.ix2 p (0 : Fin 1))
      = val_main_v42 (F := Ideal) x10 (ValueIdx.ix1 p) :=
  broadcastInDim_apply _ bcast_S25000_S25000x1_0 (val_main_v42 (F := Ideal) x10) (ValueIdx.ix2 p (0 : Fin 1)) (ValueIdx.ix1 p) (fun a => match a with
    | ⟨0, _⟩ => by show p.val = if (25000 : Nat) = 1 then 0 else p.val; rw [if_neg (by decide)])

/-- The specification's second layer at `(p, q)`. -/
theorem layer1_at (A : (⟨2, ![25000, 256]⟩ : Shape).Idx → EReal) (X : (⟨2, ![100000, 256]⟩ : Shape).Idx → EReal)
    (C : (⟨2, ![25000, 1]⟩ : Shape).Idx → EReal) (WL : (⟨2, ![256, 128]⟩ : Shape).Idx → EReal)
    (B : (⟨1, ![128]⟩ : Shape).Idx → EReal) (WR : (⟨2, ![256, 128]⟩ : Shape).Idx → EReal) (p : Fin 25000) (q : Fin 128) :
    SageSpec.layer1 A X C WL B WR (ValueIdx.ix2 p q)
      = ((∑ k : Fin 256, A (ValueIdx.ix2 p k) * WL (ValueIdx.ix2 k q)) * Ideal.div SageSpec.oneW (max (C (ValueIdx.ix2 p (0 : Fin 1))) SageSpec.oneW)
            + ∑ k : Fin 256, X (ValueIdx.ix2 (Fin.castLE (by norm_num : 25000 ≤ 100000) p) k) * WR (ValueIdx.ix2 k q))
          + B (ValueIdx.ix1 q) := rfl

/-- THE SECOND LAYER. The reference's second layer is the specification's, on the reference's own summed messages,
    first-layer features, counts (as a column) and transposed weights, by the same law and the same exchange of the
    two additions as the first; no rectifier follows. -/
theorem layer1_eq (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 x8 : (⟨S1600000, .i32⟩ : BufTy).Contents (Elt Ideal)) (x9 x10 : (⟨S400000, .i32⟩ : BufTy).Contents (Elt Ideal)) :
    val_main_v54 (F := Ideal) x0 x1 x2 x3 x4 x5 x6 x7 x8 x9 x10
      = SageSpec.layer1 (val_main_v38 (F := Ideal) x0 x1 x2 x3 x7 x8 x9 x10) (val_main_v27 (F := Ideal) x0 x1 x2 x3 x7 x8) (broadcastInDim S25000x1 ![0] bcast_S25000_S25000x1_0 (val_main_v42 (F := Ideal) x10)) (val_main_v47 (F := Ideal) x4) x5 (val_main_v52 (F := Ideal) x6) := by
  funext i
  obtain ⟨p, q, rfl⟩ : ∃ (p : Fin 25000) (q : Fin 128), i = ValueIdx.ix2 p q := ⟨i 0, i 1, ValueIdx.eq_ix2 i⟩
  have h1 : Ideal.ofBits .f32 0x3F800000#32 = (1 : EReal) := SageSpec.one_word
  rw [v54_at, layer1_at, ccol1, SageSpec.one_word, h1,
    SageMean.mean_then_mix_eq_mix_then_scale (fun k : Fin 256 => val_main_v38 (F := Ideal) x0 x1 x2 x3 x7 x8 x9 x10 (ValueIdx.ix2 p k))
      (fun k : Fin 256 => val_main_v47 (F := Ideal) x4 (ValueIdx.ix2 k q)) (val_main_v42 (F := Ideal) x10 (ValueIdx.ix1 p)),
    add_right_comm]

end Cert.ReferenceIdeal.RefLayers

end
-- ==== Proof.RefWhole.lean ====
/-
  The whole reference, read as the two specification layers on the kernel program's operands.

  The reference and the kernel's program prepare each layer's operands by the same host operations on the same arrays:
  the feature rows of the messages' sources are gathered and summed into their destinations, a one per message is summed
  the same way into the message counts (kept as a column), and the weight matrices are transposed. The two programs
  declare these operations' dimension records separately, with the same contents, so each operand of the reference
  equals the corresponding operand of the kernel's program by unfolding. With the two layer theorems this reads the
  reference's result as the specification's second layer applied to operands that are themselves built from the
  specification's first layer: the second layer's node features are the first layer's result, and its summed messages
  are gathered from that result.
-/
import proofs.«129243_j55078660603921_2_alg».proof.Proof.RefLayers
import proofs.«129243_j55078660603921_2_alg».proof.Proof.Stages

noncomputable section

namespace Cert.ReferenceIdeal.RefWhole

open Cert.ReferenceIdeal Cert.ReferenceIdeal.Gen Cert.ReferenceIdeal.Read Idealize.ShloMosaic

/-! ## The reference's operands are the kernel program's

Each equation holds by unfolding: the two programs spell the same host operations, on the same arrays, with records
of dimension numbers that are declared twice (once per program) with the same contents. -/

/-- The summed messages of the first layer. -/
theorem agg0_eq (x0 : (⟨S500000x128, .f32⟩ : BufTy).Contents (Elt Ideal)) (x7 x8 : (⟨S1600000, .i32⟩ : BufTy).Contents (Elt Ideal)) :
    val_main_v10 (F := Ideal) x0 x7 x8 = Cert.KernelIdeal.Stages.agg0 x0 x7 x8 := rfl

/-- The message counts of the first layer, as a column. -/
theorem cnt0_eq (x8 : (⟨S1600000, .i32⟩ : BufTy).Contents (Elt Ideal)) :
    broadcastInDim S100000x1 ![0] bcast_S100000_S100000x1_0 (val_main_v14 (F := Ideal) x8) = Cert.KernelIdeal.Stages.cnt0 x8 := rfl

/-- The two transposed weight matrices of the first layer. -/
theorem wl0_eq (x1 : (⟨S256x128, .f32⟩ : BufTy).Contents (Elt Ideal)) : val_main_v19 (F := Ideal) x1 = Cert.KernelIdeal.Stages.wT0 x1 := rfl
theorem wr0_eq (x3 : (⟨S256x128, .f32⟩ : BufTy).Contents (Elt Ideal)) : val_main_v24 (F := Ideal) x3 = Cert.KernelIdeal.Stages.wT0 x3 := rfl

/-- The summed messages of the second layer, as a function of the first layer's result: the first layer sits inside
    them, as the rows that are gathered and summed, and is left as it is. -/
theorem agg1_eq (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x7 x8 : (⟨S1600000, .i32⟩ : BufTy).Contents (Elt Ideal)) (x9 x10 : (⟨S400000, .i32⟩ : BufTy).Contents (Elt Ideal)) :
    val_main_v38 (F := Ideal) x0 x1 x2 x3 x7 x8 x9 x10
      = Cert.KernelIdeal.Stages.agg1 (val_main_v27 (F := Ideal) x0 x1 x2 x3 x7 x8) x9 x10 := rfl

/-- The message counts of the second layer, as a column. -/
theorem cnt1_eq (x10 : (⟨S400000, .i32⟩ : BufTy).Contents (Elt Ideal)) :
    broadcastInDim S25000x1 ![0] bcast_S25000_S25000x1_0 (val_main_v42 (F := Ideal) x10) = Cert.KernelIdeal.Stages.cnt1 x10 := rfl

/-- The two transposed weight matrices of the second layer. -/
theorem wl1_eq (x4 : (⟨S128x256, .f32⟩ : BufTy).Contents (Elt Ideal)) : val_main_v47 (F := Ideal) x4 = Cert.KernelIdeal.Stages.wT1 x4 := rfl
theorem wr1_eq (x6 : (⟨S128x256, .f32⟩ : BufTy).Contents (Elt Ideal)) : val_main_v52 (F := Ideal) x6 = Cert.KernelIdeal.Stages.wT1 x6 := rfl

/-! ## The whole reference -/

/-- THE REFERENCE'S RESULT is the specification's second layer on the second layer's operands, whose node features
    and summed messages are taken from the specification's first layer on the first layer's operands. -/
theorem whole_eq (x0 : (⟨S500000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 x8 : (⟨S1600000, .i32⟩ : BufTy).Contents (Elt Ideal)) (x9 x10 : (⟨S400000, .i32⟩ : BufTy).Contents (Elt Ideal)) :
    val_main_v54 (F := Ideal) x0 x1 x2 x3 x4 x5 x6 x7 x8 x9 x10
      = SageSpec.layer1 (Cert.KernelIdeal.Stages.agg1 (SageSpec.layer0 (Cert.KernelIdeal.Stages.agg0 x0 x7 x8) x0 (Cert.KernelIdeal.Stages.cnt0 x8) (Cert.KernelIdeal.Stages.wT0 x1) x2 (Cert.KernelIdeal.Stages.wT0 x3)) x9 x10) (SageSpec.layer0 (Cert.KernelIdeal.Stages.agg0 x0 x7 x8) x0 (Cert.KernelIdeal.Stages.cnt0 x8) (Cert.KernelIdeal.Stages.wT0 x1) x2 (Cert.KernelIdeal.Stages.wT0 x3)) (Cert.KernelIdeal.Stages.cnt1 x10) (Cert.KernelIdeal.Stages.wT1 x4) x5 (Cert.KernelIdeal.Stages.wT1 x6) := by
  rw [RefLayers.layer1_eq, agg1_eq, cnt1_eq, wl1_eq, wr1_eq, RefLayers.layer0_eq, agg0_eq, cnt0_eq, wl0_eq, wr0_eq]

end Cert.ReferenceIdeal.RefWhole

end
-- ==== Proof.lean ====
/-
  Two layers of a mean-aggregating graph network: the kernel program against its array-language reference, on the extended reals.

  WHAT IS COMPUTED. Each layer gives every target node the MEAN of the feature rows of the nodes that send it a message,
  mixed by one weight matrix, plus the node's own features mixed by another, plus a bias; the first layer is rectified. The
  mean is the sum of the rows divided by the number of messages, clamped below by one.

  WHERE THE TWO PROGRAMS DIFFER. Both programs gather and sum the messages and count them with the same host operations on
  the same arrays. The reference then divides the summed rows by the clamped count and multiplies by the weights; the
  kernel multiplies the summed rows by the weights first, a block of rows at a time, and scales the product by the
  reciprocal of the clamped count afterwards. It also adds the bias last where the reference adds it before the node's own
  term, and narrows its operands to a shorter float format before the products, which on the extended reals is the identity.

  WHY THEY AGREE. The factor moved across the sum, the reciprocal of a count clamped below by one, is a nonnegative real
  whatever the count is, and multiplication by a nonnegative real distributes over every sum of extended reals
  (MeanScale.lean); the rest is commutativity and associativity of addition. No finiteness of the inputs is used: the
  precondition is never opened. The second layer reads the first layer's result, which is the same array in both programs,
  so its summed messages are the same too, and the same law applies once more.

  THE MODULES. LayerSpec: one layer at an entry, as a function of its operand arrays. MeanScale: the law. Tile0 / Tile1:
  what a launch's body stores at an entry of its block. LayerRows: a layer's row depends on the same row of its operands.
  Blocks0 / Blocks1: so each launch leaves the layer in its output array. Stages: the operands the host prepares.
  WholeRun / Boundaries: the kernel's run with its result named as one function of the launch arrays. RefLayers / RefWhole:
  the reference's result is the same function. The three frame claims are the generated frames; nothing was rewritten by
  the idealization, so that claim is trivial.
-/
import proofs.«129243_j55078660603921_2_alg».proof.Defs
import proofs.«129243_j55078660603921_2_alg».proof.Proof.Gen.Kernel
import proofs.«129243_j55078660603921_2_alg».proof.Proof.Gen.Kernel.Skeleton
import proofs.«129243_j55078660603921_2_alg».proof.Proof.Gen.Kernel.Launch
import proofs.«129243_j55078660603921_2_alg».proof.Proof.Gen.Kernel.Points
import proofs.«129243_j55078660603921_2_alg».proof.Proof.Gen.Kernel.Frame
import proofs.«129243_j55078660603921_2_alg».proof.Proof.Gen.KernelIdeal
import proofs.«129243_j55078660603921_2_alg».proof.Proof.Gen.KernelIdeal.Skeleton
import proofs.«129243_j55078660603921_2_alg».proof.Proof.Gen.KernelIdeal.Launch
import proofs.«129243_j55078660603921_2_alg».proof.Proof.Gen.KernelIdeal.Points
import proofs.«129243_j55078660603921_2_alg».proof.Proof.Gen.KernelIdeal.Frame
import proofs.«129243_j55078660603921_2_alg».proof.Proof.Gen.ReferenceIdeal
import proofs.«129243_j55078660603921_2_alg».proof.Proof.Gen.ReferenceIdeal.Run
import proofs.«129243_j55078660603921_2_alg».proof.Proof.Gen.ReferenceIdeal.Read
import proofs.«129243_j55078660603921_2_alg».proof.Proof.Gen.Pre_finite_inputs
import proofs.«129243_j55078660603921_2_alg».proof.Proof.Boundaries
import proofs.«129243_j55078660603921_2_alg».proof.Proof.RefWhole
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the second layer over the
    first, of the launch arrays. -/
theorem algebraic : Cert.algebraic_KernelIdeal_ReferenceIdeal := by
  intro m ρ m' ρ' _ hagree
  refine ⟨fun c => Cert.KernelIdeal.Whole.output m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v54_eq, Cert.ReferenceIdeal.RefWhole.whole_eq, h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
